-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x4096x256 .f32) (main_arg1 : FVec F S8x4096x256 .f32) (main_arg2 : FVec F S8x4096x256 .f32) (main_arg3 : FVec F S256 .f32) (main_arg4 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg2
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x4096x256 : Shape := ⟨3, ![8, 4096, 256]⟩
abbrev S256 : Shape := ⟨1, ![256]⟩
abbrev S1x512x256 : Shape := ⟨3, ![1, 512, 256]⟩
abbrev S1x4096x256 : Shape := ⟨3, ![1, 4096, 256]⟩
abbrev S512x256 : Shape := ⟨2, ![512, 256]⟩
abbrev S4096x256 : Shape := ⟨2, ![4096, 256]⟩
abbrev S512x4096 : Shape := ⟨2, ![512, 4096]⟩
abbrev S512 : Shape := ⟨1, ![512]⟩
abbrev S512x1 : Shape := ⟨2, ![512, 1]⟩
abbrev S1x256 : Shape := ⟨2, ![1, 256]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S256, .f32⟩
  | .hbm, ⟨4, _⟩ => ⟨S256, .f32⟩
  | .hbm, ⟨5, _⟩ => ⟨S8x4096x256, .bf16⟩
  | .hbm, ⟨6, _⟩ => ⟨S8x4096x256, .bf16⟩
  | .hbm, ⟨7, _⟩ => ⟨S8x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S256, .f32⟩
  | .local _ .vmem, ⟨7, _⟩ => ⟨S256, .f32⟩
  | .local _ .vmem, ⟨8, _⟩ => ⟨S1x512x256, .f32⟩
  | .local _ .vmem, ⟨9, _⟩ => ⟨S1x512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S512x4096_S512 : S512x4096.Reduces [1] S512
  shapeCasts_S512_S512x1 : S512.ShapeCasts S512x1
  broadcasts_S512x1_S512x4096 : S512x1.Broadcasts S512x4096
  broadcasts_S512x1_S512x256 : S512x1.Broadcasts S512x256
  reduces_S512x256_S512 : S512x256.Reduces [1] S512
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  shapeCasts_S512x256_S1x512x256 : S512x256.ShapeCasts S1x512x256
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .f32 = 32 ∨ (Rect.block (s := S8x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x256.size a
  hwx0_1 : ∀ i : grid0.Coords, EltTy.bits .bf16 = 32 ∨ (Rect.block (s := S8x4096x256) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x4096x256.size a
  hwx0_2 : ∀ i : grid0.Coords, EltTy.bits .bf16 = 32 ∨ (Rect.block (s := S8x4096x256) S1x4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S8x4096x256.size a
  hwx0_5 : ∀ i : grid0.Coords, EltTy.bits .f32 = 32 ∨ (Rect.block (s := S8x4096x256) S1x512x256.size (cc0_transform_5 i) (hinb0_5 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S256 : Shape := ⟨1, ![256]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S1x1x256 : Shape := ⟨3, ![1, 1, 256]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x256, .f32⟩
  | .hbm, ⟨27, _⟩ => ⟨S8x4096x256, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x256, .f32⟩
  | .hbm, ⟨35, _⟩ => ⟨S8x4096x256, .f32⟩
  | .hbm, ⟨36, _⟩ => ⟨S8x4096x256, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x256, .f32⟩
  | .hbm, ⟨44, _⟩ => ⟨S8x4096x256, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x256, .f32⟩
  | .hbm, ⟨50, _⟩ => ⟨S8x4096x256, .f32⟩
  | .hbm, ⟨51, _⟩ => ⟨S1x1x256, .f32⟩
  | .hbm, ⟨52, _⟩ => ⟨S8x4096x256, .f32⟩
  | .hbm, ⟨53, _⟩ => ⟨S8x4096x256, .f32⟩
  | .hbm, ⟨54, _⟩ => ⟨S1x1x256, .f32⟩
  | .hbm, ⟨55, _⟩ => ⟨S8x4096x256, .f32⟩
  | .hbm, ⟨56, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  reducesTo_S8x4096x256_S8x4096_d2 : S8x4096x256.ReducesTo [2] S8x4096
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.AttnRows.lean ====
/-
  One query row of scaled dot-product attention with a residual, and the layer normalisation of a row, as
  functions on the extended reals, in the two arrangements the programs compute.

  Arrangement K scales the query before the products, `s n = ∑ e, (q e · c) · k n e`, subtracts the row maximum
  `M`, and normalises AFTER the value product: `(∑ n, exp (s n - M) · v n d) · (1 / ∑ n, exp (s n - M)) + q d`.
  Arrangement R scales the finished score, `s n = (∑ e, q e · k n e) · c`, and normalises each weight BEFORE the
  value product: `∑ n, (exp (s n - M) / ∑ n', exp (s n' - M)) · v n d + q d`.
  When the query, the keys and the values are real numbers the two agree: the scores are the same real numbers
  (a factor moves across a finite real sum), so the maxima are one real number, every exponential is a positive
  real, their sum `l` is a positive real, and `(∑ n, p n · v n) / l = ∑ n, (p n / l) · v n` over the reals.
-/
import Idealize.ShloMosaic.PureOps.Ideal
import Mathlib.Data.Finset.Fold

noncomputable section

namespace Cert.AttnRows

open Idealize.ShloMosaic

variable {κ δ : Type} [Fintype κ] [Fintype δ]

/-! ## The two arrangements -/

/-- Scores with the scale folded into the query. -/
def scoreK (c : EReal) (q : δ → EReal) (k : κ → δ → EReal) (n : κ) : EReal := ∑ e, (q e * c) * k n e

/-- Scores scaled after the contraction. -/
def scoreR (c : EReal) (q : δ → EReal) (k : κ → δ → EReal) (n : κ) : EReal := (∑ e, q e * k n e) * c

/-- The unnormalised weights against the values, normalised once at the end. -/
def attnK (one ninf : EReal) (s : κ → EReal) (v : κ → δ → EReal) (d : δ) : EReal :=
  (∑ n, Ideal.exp (s n - Finset.univ.fold max ninf s) * v n d)
    * Ideal.div one (∑ n, Ideal.exp (s n - Finset.univ.fold max ninf s))

/-- Each weight normalised, then taken against the values. -/
def attnR (ninf : EReal) (s : κ → EReal) (v : κ → δ → EReal) (d : δ) : EReal :=
  ∑ n, Ideal.div (Ideal.exp (s n - max ninf (Finset.univ.fold max ninf s)))
      (∑ n', Ideal.exp (s n' - max ninf (Finset.univ.fold max ninf s))) * v n d

/-- Layer normalisation of a row `o`: centred by the mean, scaled by the reciprocal root of the variance plus
    `eps`, then by `g`, shifted by `b`; `nn` is the row length as the programs spell it. -/
def layerNorm (nn eps : EReal) (o g b : δ → EReal) (d : δ) : EReal :=
  ((o d - Ideal.div (∑ e, o e) nn)
      * Ideal.rsqrt (Ideal.div (∑ e, (o e - Ideal.div (∑ e', o e') nn) * (o e - Ideal.div (∑ e', o e') nn)) nn + eps))
    * g d + b d

/-! ## Sums and maxima of real numbers -/

/-- A finite sum of real numbers, read in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many real numbers, taken from the bottom element over a nonempty index set, is a real number. -/
theorem fold_max_real [Nonempty κ] (s : κ → ℝ) : ∃ M : ℝ, Finset.univ.fold max (⊥ : EReal) (fun n => (s n : EReal)) = (M : EReal) := by
  obtain ⟨n0⟩ := ‹Nonempty κ›
  have hlo : ((s n0 : ℝ) : EReal) ≤ Finset.univ.fold max (⊥ : EReal) (fun n => (s n : EReal)) :=
    (Finset.le_fold_max _).mpr (Or.inr ⟨n0, Finset.mem_univ _, le_rfl⟩)
  have hhi : Finset.univ.fold max (⊥ : EReal) (fun n => (s n : EReal)) < ⊤ :=
    (Finset.fold_max_lt _).mpr ⟨bot_lt_top, fun n _ => EReal.coe_lt_top _⟩
  have hne_bot : Finset.univ.fold max (⊥ : EReal) (fun n => (s n : EReal)) ≠ ⊥ :=
    fun h => absurd (h ▸ hlo) (not_le.mpr (EReal.bot_lt_coe _))
  exact ⟨_, (EReal.coe_toReal hhi.ne hne_bot).symm⟩

/-! ## The two arrangements agree on real inputs -/

/-- The scores agree: the scale moves across the real sum. -/
theorem scoreK_eq_scoreR (cr : ℝ) (q : δ → ℝ) (k : κ → δ → ℝ) (n : κ) :
    scoreK (cr : EReal) (fun e => (q e : EReal)) (fun n e => (k n e : EReal)) n
      = scoreR (cr : EReal) (fun e => (q e : EReal)) (fun n e => (k n e : EReal)) n := by
  unfold scoreK scoreR
  simp only [← EReal.coe_mul, coe_sum]
  rw [Finset.sum_mul]
  refine congrArg _ (Finset.sum_congr rfl fun e _ => ?_)
  ring

/-- Both score spellings are real numbers. -/
theorem scoreR_real (cr : ℝ) (q : δ → ℝ) (k : κ → δ → ℝ) (n : κ) :
    scoreR (cr : EReal) (fun e => (q e : EReal)) (fun n e => (k n e : EReal)) n = (((∑ e, q e * k n e) * cr : ℝ) : EReal) := by
  unfold scoreR
  simp only [← EReal.coe_mul, coe_sum]

/-- On real scores and values the late normalisation is the early one. -/
theorem attnK_eq_attnR [Nonempty κ] (s : κ → ℝ) (v : κ → δ → ℝ) (d : δ) :
    attnK ((1 : ℝ) : EReal) ⊥ (fun n => (s n : EReal)) (fun n e => (v n e : EReal)) d
      = attnR ⊥ (fun n => (s n : EReal)) (fun n e => (v n e : EReal)) d := by
  obtain ⟨M, hM⟩ := fold_max_real s
  unfold attnK attnR
  rw [hM, max_eq_right bot_le]
  have hexp : ∀ n, Ideal.exp ((s n : EReal) - (M : EReal)) = ((Real.exp (s n - M) : ℝ) : EReal) := fun n => by
    rw [← EReal.coe_sub, Ideal.exp_coe]
  simp only [hexp, coe_sum]
  have hl : (∑ n, Real.exp (s n - M)) ≠ 0 :=
    (Finset.sum_pos (fun n _ => Real.exp_pos _) Finset.univ_nonempty).ne'
  simp only [Ideal.div_coe hl, ← EReal.coe_mul, coe_sum]
  refine congrArg _ ?_
  rw [Finset.sum_mul]
  refine Finset.sum_congr rfl fun n _ => ?_
  ring

/-- One row of attention with the residual, in the two arrangements, on real query, keys and values. -/
theorem rowK_eq_rowR [Nonempty κ] (cr : ℝ) (q : δ → EReal) (k v : κ → δ → EReal)
    (hq : ∀ e, ∃ r : ℝ, q e = r) (hk : ∀ n e, ∃ r : ℝ, k n e = r) (hv : ∀ n e, ∃ r : ℝ, v n e = r) (d : δ) :
    attnK ((1 : ℝ) : EReal) ⊥ (scoreK (cr : EReal) q k) v d + q d = attnR ⊥ (scoreR (cr : EReal) q k) v d + q d := by
  choose q' hq' using hq
  choose k' hk' using hk
  choose v' hv' using hv
  obtain rfl : q = fun e => (q' e : EReal) := funext hq'
  obtain rfl : k = fun n e => (k' n e : EReal) := funext fun n => funext fun e => hk' n e
  obtain rfl : v = fun n e => (v' n e : EReal) := funext fun n => funext fun e => hv' n e
  have hs : scoreK (cr : EReal) (fun e => (q' e : EReal)) (fun n e => (k' n e : EReal))
      = fun n => (((∑ e, q' e * k' n e) * cr : ℝ) : EReal) :=
    funext fun n => (scoreK_eq_scoreR cr q' k' n).trans (scoreR_real cr q' k' n)
  have hs' : scoreR (cr : EReal) (fun e => (q' e : EReal)) (fun n e => (k' n e : EReal))
      = fun n => (((∑ e, q' e * k' n e) * cr : ℝ) : EReal) :=
    funext fun n => scoreR_real cr q' k' n
  rw [hs, hs', attnK_eq_attnR]

end Cert.AttnRows

end
-- ==== Proof.LibColumnCast.lean ====
/-
  A vector `[a]` reshaped to a column `[a, 1]` reads, at `(i, u)`, the vector at `i`.
-/
import Idealize.ShloMosaic.Lib.ValueLayout
import Idealize.ShloMosaic.Lib.Pipeline.Value

namespace Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibColumnBroadcast.lean ====
/-
  Column broadcasts read at an index, beside the library's row broadcast: a `[a, 1]` array broadcast to `[a, b]` reads, at `(p, c)`,
  the operand's one column at row `p`.
-/
import Idealize.ShloMosaic.Lib.ValueLayout
import Idealize.ShloMosaic.Lib.Pipeline.Value

namespace Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.LibDotRowT.lean ====
/-
  A matrix product whose two operands are BOTH contracted on their second axis, read at an index, as a sum over
  the contracted coordinate.

  For dimension numbers `d` of an [M, K] by [N, K] product into [M, N] — each operand contracted on its second
  axis, the rows of the right operand becoming the columns of the result — the sum over the contraction index
  set of `L (d.lhsIdx (p, f) k) * R (d.rhsIdx (p, f) k)` is `∑ k : Fin K, L (p, k) * R (f, k)`: the contraction
  index is its one coordinate, the left operand's row is the output's row and the right operand's row the
  output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.KernelRow.lean ====
/-
  The kernel's attention value with the residual — the array the layer normalisation is applied to — read at row
  `r`, column `d` of a block. It is arrangement K of one query row (AttnRows): the query row is row `r` of the
  block's query tile, the keys and values are the batch's whole key and value arrays; the two roundings to bf16
  are the identity on extended reals; each matrix product into a zero accumulator is the plain sum over its one
  contracted coordinate; the row maximum is the fold of `max` from the initial word over the 4096 keys and the row
  sum the sum over them, both kept as one column and broadcast back along the row.
-/
import proofs.«157333_j33913061769232_2_alg».proof.Proof.Gen.KernelIdeal.Skeleton
import proofs.«157333_j33913061769232_2_alg».proof.Proof.AttnRows
import proofs.«157333_j33913061769232_2_alg».proof.Proof.LibColumnCast
import proofs.«157333_j33913061769232_2_alg».proof.Proof.LibColumnBroadcast
import proofs.«157333_j33913061769232_2_alg».proof.Proof.LibDotRow
import proofs.«157333_j33913061769232_2_alg».proof.Proof.LibDotRowT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.AttnRows

/-! ## The body's three stages, as vector operations -/

/-- The scores of a query tile `x` against the keys `y`: the tile scaled, rounded, and contracted with the keys on
    the feature axis of both. -/
def scores (x : FVec Ideal S512x256 .f32) (y : FVec Ideal S4096x256 .bf16) : FVec Ideal S512x4096 .f32 :=
  matmul dot_S512x256_S4096x256_S512x4096_1_1_0_0_n_n none
    (truncf .bf16 (mulf x (broadcast S512x256 (Scalar.ofBits .f32 0x3D800000#32))) bitsLt_bf16_f32) y
    (constant S512x4096 .f32 0x00000000#32)

/-- The unnormalised weights: the exponential of each score less its row's maximum. -/
def weights (s : FVec Ideal S512x4096 .f32) : FVec Ideal S512x4096 .f32 :=
  exp (subf s (broadcastTo S512x4096 (shapeCast S512x1
    (multiReduction .maximumf [1] S512 s 0xFF800000#32 reduces_S512x4096_S512 (.inl rfl) rfl) shapeCasts_S512_S512x1)
    broadcasts_S512x1_S512x4096))

/-- The weights against the values `z`, then every row times the reciprocal of its weights' sum. -/
def normalised (p : FVec Ideal S512x4096 .f32) (z : FVec Ideal S4096x256 .bf16) : FVec Ideal S512x256 .f32 :=
  mulf (matmul dot_S512x4096_S4096x256_S512x256_1_0_0_1_n_n none (truncf .bf16 p bitsLt_bf16_f32) z
      (constant S512x256 .f32 0x00000000#32))
    (broadcastTo S512x256 (divf (broadcast S512x1 (Scalar.ofBits .f32 0x3F800000#32))
      (shapeCast S512x1 (multiReduction .add [1] S512 p 0x00000000#32 reduces_S512x4096_S512 (.inl rfl) rfl)
        shapeCasts_S512_S512x1)) broadcasts_S512x1_S512x256)

/-- The payload is the three stages on the re-laid blocks, plus the query tile. -/
theorem pay2_eq (P0 : Vec Ideal S1x512x256 .f32) (P1 P2 : Vec Ideal S1x4096x256 .bf16) :
    k0_pay2 (F := Ideal) P0 P1 P2
      = addf (normalised (weights (scores (shapeCast S512x256 P0 shapeCasts_S1x512x256_S512x256)
            (shapeCast S4096x256 P1 shapeCasts_S1x4096x256_S4096x256)))
          (shapeCast S4096x256 P2 shapeCasts_S1x4096x256_S4096x256))
        (shapeCast S512x256 P0 shapeCasts_S1x512x256_S512x256) := rfl

/-! ## Each stage read at an index -/

/-- Where the reduction over the key axis of a [512, 4096] array puts key `n` of row `r`. -/
theorem lift_row (r : Fin 512) (n : Fin 4096) :
    reduces_S512x4096_S512.lift (ix1 r) n = ix2 r n := by
  funext a; apply Fin.ext
  match a with
  | ⟨0, _⟩ => rfl
  | ⟨1, _⟩ => rfl

theorem scores_apply (x : FVec Ideal S512x256 .f32) (y : FVec Ideal S4096x256 .bf16) (r : Fin 512) (n : Fin 4096) :
    scores x y (ix2 r n)
      = scoreK (Ideal.ofBits .f32 0x3D800000#32) (fun e : Fin 256 => x (ix2 r e)) (fun (n : Fin 4096) (e : Fin 256) => y (ix2 n e)) n := by
  unfold scores scoreK
  refine (Ideal.matmul_constant_zero_apply _ none _ y (ix2 r n)).trans ?_
  refine (DotRowT.sum_contr dot_S512x256_S4096x256_S512x4096_1_1_0_0_n_n rfl rfl rfl rfl
    (fun j k => by
      unfold DotDims.lhsIdx
      rw [dif_neg (show ¬(0 : Fin S512x256.rank) ∈ dot_S512x256_S4096x256_S512x4096_1_1_0_0_n_n.lhsBatch by decide),
        dif_pos (show (0 : Fin S512x256.rank) ∈ dot_S512x256_S4096x256_S512x4096_1_1_0_0_n_n.lhsNonContracting by decide)]
      rfl)
    (fun j k => by
      unfold DotDims.rhsIdx
      rw [dif_neg (show ¬(0 : Fin S4096x256.rank) ∈ dot_S512x256_S4096x256_S512x4096_1_1_0_0_n_n.rhsBatch by decide),
        dif_pos (show (0 : Fin S4096x256.rank) ∈ dot_S512x256_S4096x256_S512x4096_1_1_0_0_n_n.rhsNonContracting by decide)]
      rfl)
    _ y r n).trans ?_
  rfl

theorem weights_apply (s : FVec Ideal S512x4096 .f32) (r : Fin 512) (n : Fin 4096) :
    weights s (ix2 r n)
      = Ideal.exp (s (ix2 r n) - Finset.univ.fold max (Ideal.ofBits .f32 0xFF800000#32) (fun n' : Fin 4096 => s (ix2 r n'))) := by
  unfold weights
  show Ideal.exp (s (ix2 r n) - broadcastTo S512x4096 (shapeCast S512x1
    (multiReduction .maximumf [1] S512 s 0xFF800000#32 reduces_S512x4096_S512 (.inl rfl) rfl) shapeCasts_S512_S512x1)
    broadcasts_S512x1_S512x4096 (ix2 r n)) = _
  rw [broadcastTo_a1_ab_apply, shapeCast_a_a1_apply]
  refine congrArg (fun M => Ideal.exp (s (ix2 r n) - M)) ?_
  refine (Ideal.multiReduction_maximumf_single s 0xFF800000#32 reduces_S512x4096_S512 (.inl rfl) rfl (ix1 r)).trans ?_
  show Finset.univ.fold max (Ideal.ofBits .f32 0xFF800000#32) (fun n' : Fin 4096 => s (reduces_S512x4096_S512.lift (ix1 r) n')) = _
  simp only [lift_row]

theorem rowsum_apply (p : FVec Ideal S512x4096 .f32) (r : Fin 512) :
    shapeCast S512x1 (multiReduction .add [1] S512 p 0x00000000#32 reduces_S512x4096_S512 (.inl rfl) rfl)
        shapeCasts_S512_S512x1 (ix2 r (0 : Fin 1))
      = ∑ n : Fin 4096, p (ix2 r n) := by
  rw [shapeCast_a_a1_apply]
  refine (Ideal.multiReduction_add_single p 0x00000000#32 reduces_S512x4096_S512 (.inl rfl) rfl (ix1 r)).trans ?_
  show ∑ n : Fin 4096, p (reduces_S512x4096_S512.lift (ix1 r) n) = _
  simp only [lift_row]

theorem normalised_apply (p : FVec Ideal S512x4096 .f32) (z : FVec Ideal S4096x256 .bf16) (r : Fin 512) (d : Fin 256) :
    normalised p z (ix2 r d)
      = (∑ n : Fin 4096, p (ix2 r n) * z (ix2 n d)) * Ideal.div (Ideal.ofBits .f32 0x3F800000#32) (∑ n : Fin 4096, p (ix2 r n)) := by
  unfold normalised
  show FloatOps.matmul dot_S512x4096_S4096x256_S512x256_1_0_0_1_n_n none (truncf .bf16 p bitsLt_bf16_f32) z
      (constant S512x256 .f32 0x00000000#32) (ix2 r d)
    * broadcastTo S512x256 (divf (broadcast S512x1 (Scalar.ofBits .f32 0x3F800000#32))
      (shapeCast S512x1 (multiReduction .add [1] S512 p 0x00000000#32 reduces_S512x4096_S512 (.inl rfl) rfl)
        shapeCasts_S512_S512x1)) broadcasts_S512x1_S512x256 (ix2 r d) = _
  rw [broadcastTo_a1_ab_apply]
  show _ * Ideal.div (Ideal.ofBits .f32 0x3F800000#32) (shapeCast S512x1
      (multiReduction .add [1] S512 p 0x00000000#32 reduces_S512x4096_S512 (.inl rfl) rfl) shapeCasts_S512_S512x1 (ix2 r (0 : Fin 1))) = _
  rw [rowsum_apply]
  refine congrArg (· * _) ?_
  refine (Ideal.matmul_constant_zero_apply _ none _ z (ix2 r d)).trans ?_
  exact DotRow.sum_contr dot_S512x4096_S4096x256_S512x256_1_0_0_1_n_n rfl rfl rfl rfl
    (fun j k => by
      unfold DotDims.lhsIdx
      rw [dif_neg (show ¬(0 : Fin S512x4096.rank) ∈ dot_S512x4096_S4096x256_S512x256_1_0_0_1_n_n.lhsBatch by decide),
        dif_pos (show (0 : Fin S512x4096.rank) ∈ dot_S512x4096_S4096x256_S512x256_1_0_0_1_n_n.lhsNonContracting by decide)]
      rfl)
    (fun j k => by
      unfold DotDims.rhsIdx
      rw [dif_neg (show ¬(1 : Fin S4096x256.rank) ∈ dot_S512x4096_S4096x256_S512x256_1_0_0_1_n_n.rhsBatch by decide),
        dif_pos (show (1 : Fin S4096x256.rank) ∈ dot_S512x4096_S4096x256_S512x256_1_0_0_1_n_n.rhsNonContracting by decide)]
      rfl)
    _ z r d

/-! ## The payload read at an index -/

/-- Row `r`, column `d` of the block's attention value with the residual is arrangement K of the query row `r` of the
    tile against the blocks of keys and values. -/
theorem pay2_apply (P0 : Vec Ideal S1x512x256 .f32) (P1 P2 : Vec Ideal S1x4096x256 .bf16) (r : Fin 512) (d : Fin 256) :
    k0_pay2 (F := Ideal) P0 P1 P2 (ix2 r d)
      = attnK (Ideal.ofBits .f32 0x3F800000#32) (Ideal.ofBits .f32 0xFF800000#32)
          (scoreK (Ideal.ofBits .f32 0x3D800000#32) (fun e : Fin 256 => P0 (ix3 (0 : Fin 1) r e))
            (fun (n : Fin 4096) (e : Fin 256) => P1 (ix3 (0 : Fin 1) n e)))
          (fun (n : Fin 4096) (e : Fin 256) => P2 (ix3 (0 : Fin 1) n e)) d
        + P0 (ix3 (0 : Fin 1) r d) := by
  rw [pay2_eq]
  show normalised _ _ (ix2 r d) + shapeCast S512x256 P0 shapeCasts_S1x512x256_S512x256 (ix2 r d) = _
  rw [normalised_apply]
  simp only [weights_apply, scores_apply, shapeCast_1ab_ab_apply]
  rfl

end Cert.KernelIdeal.RowValue

end
-- ==== Proof.KernelBlock.lean ====
/-
  What a grid point leaves in its output block, read at `(0, r, d)`: the layer normalisation, along the feature axis,
  of row `r` of the block's attention value with the residual. The generated value leg gives the block as one
  index-by-index function of the body's loads; here its two lane sums are read as sums over the 256 features, the
  column of means broadcast back along the row, and the words of the row length and of the epsilon left as they are.
-/
import proofs.«157333_j33913061769232_2_alg».proof.Proof.Gen.KernelIdeal.Value
import proofs.«157333_j33913061769232_2_alg».proof.Proof.KernelRow

noncomputable section

namespace Cert.KernelIdeal.BlockValue

open Cert.KernelIdeal Cert.KernelIdeal.Gen Cert.KernelIdeal.Value Idealize.ShloMosaic Idealize.ShloMosaic.ValueIdx Cert.AttnRows

/-- Where the reduction over the feature axis of a [512, 256] array puts feature `e` of row `r`. -/
theorem lift_feat (r : Fin 512) (e : Fin 256) : reduces_S512x256_S512.lift (ix1 r) e = ix2 r e := by
  funext a; apply Fin.ext
  match a with
  | ⟨0, _⟩ => rfl
  | ⟨1, _⟩ => rfl

/-- A lane sum of a [512, 256] array at row `r` is the sum over the row's 256 features. -/
theorem rowsum256 (x : FVec Ideal S512x256 .f32) (r : Fin 512) :
    multiReduction .add [1] S512 x 0x00000000#32 reduces_S512x256_S512 (.inl rfl) rfl (ix1 r) = ∑ e : Fin 256, x (ix2 r e) := by
  refine (Ideal.multiReduction_add_single x 0x00000000#32 reduces_S512x256_S512 (.inl rfl) rfl (ix1 r)).trans ?_
  show ∑ e : Fin 256, x (reduces_S512x256_S512.lift (ix1 r) e) = _
  simp only [lift_feat]

/-- A row less its mean, at `(r, e)`. -/
theorem centred_apply (x : FVec Ideal S512x256 .f32) (r : Fin 512) (e : Fin 256) :
    (subf x (broadcastTo S512x256 (divf (shapeCast S512x1
        (multiReduction .add [1] S512 x 0x00000000#32 reduces_S512x256_S512 (.inl rfl) rfl) shapeCasts_S512_S512x1)
        (broadcast S512x1 (Scalar.ofBits .f32 0x43800000#32))) broadcasts_S512x1_S512x256)) (ix2 r e)
      = x (ix2 r e) - Ideal.div (∑ e' : Fin 256, x (ix2 r e')) (Ideal.ofBits .f32 0x43800000#32) := by
  show x (ix2 r e) - broadcastTo S512x256 (divf (shapeCast S512x1
        (multiReduction .add [1] S512 x 0x00000000#32 reduces_S512x256_S512 (.inl rfl) rfl) shapeCasts_S512_S512x1)
        (broadcast S512x1 (Scalar.ofBits .f32 0x43800000#32))) broadcasts_S512x1_S512x256 (ix2 r e) = _
  rw [broadcastTo_a1_ab_apply]
  show x (ix2 r e) - Ideal.div (shapeCast S512x1
        (multiReduction .add [1] S512 x 0x00000000#32 reduces_S512x256_S512 (.inl rfl) rfl) shapeCasts_S512_S512x1
        (ix2 r (0 : Fin 1))) (Ideal.ofBits .f32 0x43800000#32) = _
  rw [shapeCast_a_a1_apply, rowsum256]

/-- The block at `(0, r, d)` is the layer normalisation of row `r` of the attention value with the residual. -/
theorem block_apply (P0 : Vec Ideal S1x512x256 .f32) (P1 P2 : Vec Ideal S1x4096x256 .bf16) (P3 P4 : Vec Ideal S256 .f32)
    (r : Fin 512) (d : Fin 256) :
    E5 (F := Ideal) P0 P1 P2 P3 P4 (ix3 (0 : Fin 1) r d)
      = layerNorm (Ideal.ofBits .f32 0x43800000#32) (Ideal.ofBits .f32 0x3727C5AC#32)
          (fun e : Fin 256 => k0_pay2 (F := Ideal) P0 P1 P2 (ix2 r e))
          (fun e : Fin 256 => P3 (ix1 e)) (fun e : Fin 256 => P4 (ix1 e)) d := by
  have e0 : ix5_0 (ix3 (0 : Fin 1) r d) = ix2 r d :=
    funext fun a => Fin.ext (by match a with | ⟨0, _⟩ => rfl | ⟨1, _⟩ => rfl)
  have e1 : ix5_1 (ix3 (0 : Fin 1) r d) = ix1 r := funext fun a => Fin.ext (by match a with | ⟨0, _⟩ => rfl)
  have e2 : ix5_2 (ix3 (0 : Fin 1) r d) = ix1 r := funext fun a => Fin.ext (by match a with | ⟨0, _⟩ => rfl)
  have e4 : ix5_4 (ix3 (0 : Fin 1) r d) = ix1 d := funext fun a => Fin.ext (by match a with | ⟨0, _⟩ => rfl)
  have e5 : ix5_5 (ix3 (0 : Fin 1) r d) = ix1 d := funext fun a => Fin.ext (by match a with | ⟨0, _⟩ => rfl)
  dsimp only [E5]
  rw [e0, e1, e2, e4, e5, rowsum256, rowsum256]
  unfold layerNorm
  refine congrArg (fun S : EReal =>
    ((k0_pay2 (F := Ideal) P0 P1 P2 (ix2 r d)
        - Ideal.div (∑ e : Fin 256, k0_pay2 (F := Ideal) P0 P1 P2 (ix2 r e)) (Ideal.ofBits .f32 0x43800000#32))
      * Ideal.rsqrt (Ideal.div S (Ideal.ofBits .f32 0x43800000#32) + Ideal.ofBits .f32 0x3727C5AC#32))
      * P3 (ix1 d) + P4 (ix1 d)) ?_
  refine Finset.sum_congr rfl fun e _ => ?_
  exact congrArg₂ (· * ·) (centred_apply _ r e) (centred_apply _ r e)

end Cert.KernelIdeal.BlockValue

end
-- ==== Proof.Words.lean ====
/-
  The float words the two programs spell, as the extended reals they denote: the kernel's query scale is the
  dyadic 1/16, the reference's scale is the quotient of 1 by the square root of 256, which is the same
  number; the initial value of both row maxima is the bottom element.
-/
import Idealize.ShloMosaic.PureOps.Ideal

noncomputable section

namespace Cert.Words

open Idealize.ShloMosaic

/-- The word of `0.0625` denotes the real `1/16`. -/
theorem ofBits_sixteenth : Ideal.ofBits .f32 0x3D800000#32 = ((1 / 16 : ℝ) : EReal) := by
  simp [Ideal.ofBits, Ideal.ieee, -EReal.coe_mul]; norm_num

/-- The word of `1.0` denotes `1`. -/
theorem ofBits_one : Ideal.ofBits .f32 0x3F800000#32 = ((1 : ℝ) : EReal) := by
  simp [Ideal.ofBits, Ideal.ieee, -EReal.coe_mul]; norm_num

/-- The word of `256.0` denotes the real `256`. -/
theorem ofBits_256 : Ideal.ofBits .f32 0x43800000#32 = ((256 : ℝ) : EReal) := by
  simp [Ideal.ofBits, Ideal.ieee, -EReal.coe_mul]; norm_num

/-- The word of negative infinity denotes the bottom element. -/
theorem ofBits_neg_inf : Ideal.ofBits .f32 0xFF800000#32 = (⊥ : EReal) := by
  simp [Ideal.ofBits, Ideal.ieee]

/-- The word of `+0.0` denotes `0`. -/
theorem ofBits_zero : Ideal.ofBits .f32 0x00000000#32 = (0 : EReal) := by
  simp [Ideal.ofBits, Ideal.ieee]

/-- The reference's scale, `1 / sqrt 256`, is `1/16`: the square root of `256` is `16` exactly. -/
theorem ref_scale :
    Ideal.div (Ideal.ofBits .f32 0x3F800000#32) (Ideal.sqrt (Ideal.ofBits .f32 0x43800000#32)) = ((1 / 16 : ℝ) : EReal) := by
  have h16 : Real.sqrt 256 = 16 := by
    rw [show (256 : ℝ) = 16 ^ 2 by norm_num]
    exact Real.sqrt_sq (by norm_num)
  rw [ofBits_one, ofBits_256, Ideal.sqrt_coe, if_neg (by norm_num), h16,
    Ideal.div_coe (by norm_num : (16 : ℝ) ≠ 0), ← EReal.coe_mul]
  norm_num

end Cert.Words

end
-- ==== Proof.AttnSpec.lean ====
/-
  The result array of both programs as ONE function of the five argument arrays, index by index: at batch `b`,
  query `Q`, feature `d` it is the layer normalisation (scale `gamma`, shift `beta`) along the feature axis of the row
  `attention (q[b, Q, :], k[b, :, :], v[b, :, :]) + q[b, Q, :]`. The kernel computes the row in arrangement K with
  the literal scale 1/16, the reference in arrangement R with the scale `1 / sqrt 256` (AttnRows). The two whole-array
  functions agree as soon as every entry of `q`, `k` and `v` is a real number; `gamma` and `beta` may be anything, since
  the normalisation is the same expression of the row on both sides.
-/
import proofs.«157333_j33913061769232_2_alg».proof.Proof.AttnRows
import proofs.«157333_j33913061769232_2_alg».proof.Proof.Words
import Idealize.ShloMosaic.Lib.ValueIdx

noncomputable section

namespace Cert.AttnSpec

open Idealize.ShloMosaic Idealize.ShloMosaic.ValueIdx Cert.AttnRows

/-- An extended-real array of shape [8, 4096, 256]. -/
abbrev A3 := (⟨3, ![8, 4096, 256]⟩ : Shape).Idx → EReal
/-- An extended-real array of shape [256]. -/
abbrev A1 := (⟨1, ![256]⟩ : Shape).Idx → EReal

/-- The kernel's row pipeline on a query row `q`, keys `k`, values `v`, scale `g` and shift `bt`. -/
def outRowsK (q : Fin 256 → EReal) (k v : Fin 4096 → Fin 256 → EReal) (g bt : Fin 256 → EReal) (d : Fin 256) : EReal :=
  layerNorm (Ideal.ofBits .f32 0x43800000#32) (Ideal.ofBits .f32 0x3727C5AC#32)
    (fun e => attnK (Ideal.ofBits .f32 0x3F800000#32) (Ideal.ofBits .f32 0xFF800000#32)
      (scoreK (Ideal.ofBits .f32 0x3D800000#32) q k) v e + q e) g bt d

/-- The reference's row pipeline on the same data. -/
def outRowsR (q : Fin 256 → EReal) (k v : Fin 4096 → Fin 256 → EReal) (g bt : Fin 256 → EReal) (d : Fin 256) : EReal :=
  layerNorm (Ideal.ofBits .f32 0x43800000#32) (Ideal.ofBits .f32 0x3727C5AC#32)
    (fun e => attnR (Ideal.ofBits .f32 0xFF800000#32)
      (scoreR (Ideal.div (Ideal.ofBits .f32 0x3F800000#32) (Ideal.sqrt (Ideal.ofBits .f32 0x43800000#32))) q k) v e + q e) g bt d

/-- Equal data give equal rows (the kernel's pipeline). -/
theorem outRowsK_congr {q q' : Fin 256 → EReal} {k k' v v' : Fin 4096 → Fin 256 → EReal} {g g' bt bt' : Fin 256 → EReal}
    {d d' : Fin 256} (hq : q = q') (hk : k = k') (hv : v = v') (hg : g = g') (hb : bt = bt') (hd : d = d') :
    outRowsK q k v g bt d = outRowsK q' k' v' g' bt' d' := by
  subst hq hk hv hg hb hd; rfl

/-- The result array, the kernel's way. -/
def GK (a0 a1 a2 : A3) (a3 a4 : A1) : A3 := fun i =>
  outRowsK (fun e => a0 (ix3 (i 0) (i 1) e)) (fun n e => a1 (ix3 (i 0) n e)) (fun n e => a2 (ix3 (i 0) n e))
    (fun e => a3 (ix1 e)) (fun e => a4 (ix1 e)) (i 2)

/-- The result array, the reference's way. -/
def GR (a0 a1 a2 : A3) (a3 a4 : A1) : A3 := fun i =>
  outRowsR (fun e => a0 (ix3 (i 0) (i 1) e)) (fun n e => a1 (ix3 (i 0) n e)) (fun n e => a2 (ix3 (i 0) n e))
    (fun e => a3 (ix1 e)) (fun e => a4 (ix1 e)) (i 2)

/-- On real query, keys and values the two row pipelines agree. -/
theorem outRowsK_eq_outRowsR (q : Fin 256 → EReal) (k v : Fin 4096 → Fin 256 → EReal) (g bt : Fin 256 → EReal)
    (hq : ∀ e, ∃ r : ℝ, q e = r) (hk : ∀ n e, ∃ r : ℝ, k n e = r) (hv : ∀ n e, ∃ r : ℝ, v n e = r) (d : Fin 256) :
    outRowsK q k v g bt d = outRowsR q k v g bt d := by
  unfold outRowsK outRowsR
  rw [Cert.Words.ref_scale, Cert.Words.ofBits_sixteenth, Cert.Words.ofBits_one, Cert.Words.ofBits_neg_inf]
  have hrow : (fun e => attnK ((1 : ℝ) : EReal) ⊥ (scoreK ((1 / 16 : ℝ) : EReal) q k) v e + q e)
      = (fun e => attnR ⊥ (scoreR ((1 / 16 : ℝ) : EReal) q k) v e + q e) :=
    funext fun e => rowK_eq_rowR (1 / 16) q k v hq hk hv e
  rw [hrow]

/-- On real `q`, `k`, `v` the two whole-array functions are one. -/
theorem GK_eq_GR (a0 a1 a2 : A3) (a3 a4 : A1)
    (h0 : ∀ i, ∃ r : ℝ, a0 i = r) (h1 : ∀ i, ∃ r : ℝ, a1 i = r) (h2 : ∀ i, ∃ r : ℝ, a2 i = r) :
    GK a0 a1 a2 a3 a4 = GR a0 a1 a2 a3 a4 :=
  funext fun i => outRowsK_eq_outRowsR _ _ _ _ _ (fun e => h0 _) (fun n e => h1 _) (fun n e => h2 _) (i 2)

end Cert.AttnSpec

end
-- ==== Proof.KernelArray.lean ====
/-
  From blocks to the array. Grid point `t = (b, qi)` stages query tile `(b, qi)` (rows `512·qi … 512·qi + 511` of batch
  `b`), the whole key and value arrays of batch `b` (as the host's two format changes left them, which at the exact
  values are the arguments themselves), the scale and the shift, and writes back output tile `(b, qi)`. So what the
  point writes back is the block `(b, qi)` of ONE whole-array function of the arguments, `GK` (AttnSpec): the tile's
  row `r` is query `512·qi + r`, and its value is the kernel's row pipeline on that query row against batch `b`'s keys
  and values. The 64 output tiles tile the [8, 4096, 256] array, so after the run the array IS `GK` of the arguments.
-/
import proofs.«157333_j33913061769232_2_alg».proof.Proof.Gen.KernelIdeal.Value
import proofs.«157333_j33913061769232_2_alg».proof.Proof.KernelBlock
import proofs.«157333_j33913061769232_2_alg».proof.Proof.AttnSpec
import Idealize.ShloMosaic.Lib.Pipeline.Value
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.AttnRows Cert.AttnSpec Cert.KernelIdeal.RowValue Cert.KernelIdeal.BlockValue
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz1 : (![0] : Fin 1 → Nat) = fun _ => 0 := funext fun a => by fin_cases a <;> rfl

/-! ## What the body leaves in the output block, over arbitrary loaded blocks -/

/-- The output block at `y = (0, r, d)` is the kernel's row pipeline on row `r` of the query block against the key and
    value blocks. -/
theorem out_apply (P0 : Vec Ideal S1x512x256 .f32) (P1 P2 : Vec Ideal S1x4096x256 .bf16) (P3 P4 : Vec Ideal S256 .f32)
    (y : S1x512x256.Idx) :
    out0_5 (F := Ideal) P0 P1 P2 P3 P4 y
      = outRowsK (fun e : Fin 256 => P0 (ix3 (0 : Fin 1) (y 1) e)) (fun (n : Fin 4096) (e : Fin 256) => P1 (ix3 (0 : Fin 1) n e))
          (fun (n : Fin 4096) (e : Fin 256) => P2 (ix3 (0 : Fin 1) n e)) (fun e : Fin 256 => P3 (ix1 e)) (fun e : Fin 256 => P4 (ix1 e)) (y 2) := by
  obtain ⟨r, d, rfl⟩ : ∃ (r : Fin 512) (d : Fin 256), y = ix3 (0 : Fin 1) r d := ⟨y 1, y 2, by
    funext a; apply Fin.ext
    match a with
    | ⟨0, _⟩ => have h : (y 0).val < 1 := (y 0).isLt; show (y 0).val = 0; omega
    | ⟨1, _⟩ => rfl
    | ⟨2, _⟩ => rfl⟩
  unfold out0_5
  simp only [View.ld_unit_zero (S := S1x512x256) hz3, View.ld_unit_zero (S := S1x4096x256) hz3,
    View.ld_unit_zero (S := S256) hz1]
  rw [Value.canon5_eq, block_apply]
  unfold outRowsK
  simp only [pay2_apply]

/-! ## The windows' blocks, read off the arrays -/

/-- The printed index maps, decided over the 64 grid points: the query and output tiles move together, the keys and
    values follow the batch only, the scale and the shift never move. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 1) = 0 ∧ win0_4.index t (0 : Fin 1) = 0
    ∧ win0_5.index t (0 : Fin 3) < 8 ∧ win0_5.index t (1 : Fin 3) < 8 ∧ win0_5.index t (2 : Fin 3) = 0 :=
  (by decide +kernel : ∀ t : Fin grid0.N, _)

/-- Every output tile is some point's. -/
theorem idx_onto : ∀ (q0 q1 : Fin 8), ∃ t : Fin cfg0.N, win0_5.index t = ![q0.val, q1.val, 0] :=
  (by decide +kernel : ∀ (q0 q1 : Fin 8), ∃ t : Fin grid0.N, win0_5.index t = ![q0.val, q1.val, 0])

/-- The query tile at a point, read off the query array. -/
theorem read_q (c : Dev nD) (t : Fin cfg0.N) (r : Fin 512) (e : Fin 256) (i : S8x4096x256.Idx)
    (h0 : win0_0.index t (0 : Fin 3) = (i 0).val) (h1 : win0_0.index t (1 : Fin 3) * 512 + r.val = (i 1).val)
    (h2 : win0_0.index t (2 : Fin 3) * 256 + e.val = (i 2).val) :
    iblk m c 0 t (ix3 (0 : Fin 1) r e) = V m c main_arg0 i := by
  show V m c main_arg0 (((cfg0.win 0).blk t).view.emb (ix3 (0 : Fin 1) r e)) = V m c main_arg0 i
  refine congrArg (V m c main_arg0) (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 256 + 1 * e.val = (i 2).val; omega

/-- The key block at a point, read off the (re-formatted) key array. -/
theorem read_k (c : Dev nD) (t : Fin cfg0.N) (n : Fin 4096) (e : Fin 256) (i : S8x4096x256.Idx)
    (h0 : win0_1.index t (0 : Fin 3) = (i 0).val) (h1 : win0_1.index t (1 : Fin 3) * 4096 + n.val = (i 1).val)
    (h2 : win0_1.index t (2 : Fin 3) * 256 + e.val = (i 2).val) :
    iblk m c 1 t (ix3 (0 : Fin 1) n e) = V m c main_v0 i := by
  show V m c main_v0 (((cfg0.win 1).blk t).view.emb (ix3 (0 : Fin 1) n e)) = V m c main_v0 i
  refine congrArg (V m c main_v0) (funext fun a => Fin.ext ?_)
  match a with
  | ⟨0, _⟩ => show win0_1.index t (0 : Fin 3) * 1 + 1 * 0 = (i 0).val; omega
  | ⟨1, _⟩ => show win0_1.index t (1 : Fin 3) * 4096 + 1 * n.val = (i 1).val; omega
  | ⟨2, _⟩ => show win0_1.index t (2 : Fin 3) * 256 + 1 * e.val = (i 2).val; omega

/-- The value block at a point, read off the (re-formatted) value array. -/
theorem read_v (c : Dev nD) (t : Fin cfg0.N) (n : Fin 4096) (e : Fin 256) (i : S8x4096x256.Idx)
    (h0 : win0_2.index t (0 : Fin 3) = (i 0).val) (h1 : win0_2.index t (1 : Fin 3) * 4096 + n.val = (i 1).val)
    (h2 : win0_2.index t (2 : Fin 3) * 256 + e.val = (i 2).val) :
    iblk m c 2 t (ix3 (0 : Fin 1) n e) = V m c main_v1 i := by
  show V m c main_v1 (((cfg0.win 2).blk t).view.emb (ix3 (0 : Fin 1) n e)) = V m c main_v1 i
  refine congrArg (V m c main_v1) (funext fun a => Fin.ext ?_)
  match a with
  | ⟨0, _⟩ => show win0_2.index t (0 : Fin 3) * 1 + 1 * 0 = (i 0).val; omega
  | ⟨1, _⟩ => show win0_2.index t (1 : Fin 3) * 4096 + 1 * n.val = (i 1).val; omega
  | ⟨2, _⟩ => show win0_2.index t (2 : Fin 3) * 256 + 1 * e.val = (i 2).val; omega

/-- The scale's block is the scale. -/
theorem read_g (c : Dev nD) (t : Fin cfg0.N) (e : Fin 256) (h0 : win0_3.index t (0 : Fin 1) = 0) :
    iblk m c 3 t (ix1 e) = V m c main_arg3 (ix1 e) := by
  show V m c main_arg3 (((cfg0.win 3).blk t).view.emb (ix1 e)) = V m c main_arg3 (ix1 e)
  refine congrArg (V m c main_arg3) (funext fun a => Fin.ext ?_)
  match a with
  | ⟨0, _⟩ => show win0_3.index t (0 : Fin 1) * 256 + 1 * e.val = e.val; omega

/-- The shift's block is the shift. -/
theorem read_b (c : Dev nD) (t : Fin cfg0.N) (e : Fin 256) (h0 : win0_4.index t (0 : Fin 1) = 0) :
    iblk m c 4 t (ix1 e) = V m c main_arg4 (ix1 e) := by
  show V m c main_arg4 (((cfg0.win 4).blk t).view.emb (ix1 e)) = V m c main_arg4 (ix1 e)
  refine congrArg (V m c main_arg4) (funext fun a => Fin.ext ?_)
  match a with
  | ⟨0, _⟩ => show win0_4.index t (0 : Fin 1) * 256 + 1 * e.val = e.val; omega

/-! ## What a point writes back -/

/-- Point `t` writes back block `t` of `GK` of the arrays as the region finds them. -/
theorem flushed_eq (c : Dev nD) (t : Fin cfg0.N) :
    (dats m 0 c).flushed 5 t = ((cfg0.win 5).blk t).view.read (Elt Ideal)
      (GK (V m c main_arg0) (V m c main_v0) (V m c main_v1) (V m c main_arg3) (V m c main_arg4)) := by
  rw [Value.flushed5]
  obtain ⟨a00, a01, a02, a10, a11, a12, a20, a21, a22, a3, a4, b0, b1, b2⟩ := idx_facts t
  funext y
  have hy0 : (y 0).val < 1 := (y 0).isLt
  have hy1 : (y 1).val < 512 := (y 1).isLt
  have hy2 : (y 2).val < 256 := (y 2).isLt
  show out0_5 (iblk m c 0 t) (iblk m c 1 t) (iblk m c 2 t) (iblk m c 3 t) (iblk m c 4 t) y
    = GK (V m c main_arg0) (V m c main_v0) (V m c main_v1) (V m c main_arg3) (V m c main_arg4) (((cfg0.win 5).blk t).view.emb y)
  refine (out_apply _ _ _ _ _ y).trans ?_
  unfold GK
  have e0 : ((((cfg0.win 5).blk t).view.emb y) 0).val = win0_5.index t (0 : Fin 3) * 1 + 1 * (y 0).val := rfl
  have e1 : ((((cfg0.win 5).blk t).view.emb y) 1).val = win0_5.index t (1 : Fin 3) * 512 + 1 * (y 1).val := rfl
  have e2 : ((((cfg0.win 5).blk t).view.emb y) 2).val = win0_5.index t (2 : Fin 3) * 256 + 1 * (y 2).val := rfl
  refine outRowsK_congr ?_ ?_ ?_ ?_ ?_ ?_
  · funext e
    refine read_q m c t (y 1) e _ ?_ ?_ ?_
    · show win0_0.index t (0 : Fin 3) = ((((cfg0.win 5).blk t).view.emb y) 0).val; omega
    · show win0_0.index t (1 : Fin 3) * 512 + (y 1).val = ((((cfg0.win 5).blk t).view.emb y) 1).val; omega
    · show win0_0.index t (2 : Fin 3) * 256 + e.val = e.val; omega
  · funext n e
    refine read_k m c t n e _ ?_ ?_ ?_
    · show win0_1.index t (0 : Fin 3) = ((((cfg0.win 5).blk t).view.emb y) 0).val; omega
    · show win0_1.index t (1 : Fin 3) * 4096 + n.val = n.val; omega
    · show win0_1.index t (2 : Fin 3) * 256 + e.val = e.val; omega
  · funext n e
    refine read_v m c t n e _ ?_ ?_ ?_
    · show win0_2.index t (0 : Fin 3) = ((((cfg0.win 5).blk t).view.emb y) 0).val; omega
    · show win0_2.index t (1 : Fin 3) * 4096 + n.val = n.val; omega
    · show win0_2.index t (2 : Fin 3) * 256 + e.val = e.val; omega
  · funext e
    exact read_g m c t e a3
  · funext e
    exact read_b m c t e a4
  · apply Fin.ext
    show (y 2).val = ((((cfg0.win 5).blk t).view.emb y) 2).val
    omega

/-! ## The cover -/

/-- An index of the array is in point `t`'s output tile iff each coordinate is in the tile's range on its axis. -/
theorem mem_blk (t : Fin cfg0.N) (i : S8x4096x256.Idx) :
    i ∈ ((cfg0.win 5).blk t).view.set ↔ ∀ a : Fin 3, win0_5.index t a * S1x512x256.size a ≤ (i a).val
      ∧ (i a).val < win0_5.index t a * S1x512x256.size a + S1x512x256.size a := by
  show i ∈ ((View.whole main_v2).slice (win0_5.rect t)).set ↔ _
  rw [View.set_slice_whole, Rect.mem_set_unit]
  exact Iff.rfl

/-- Every index of the result array lies in some point's output tile: batch `b`, query `Q` is in tile `(b, Q / 512)`. -/
theorem cover (i : S8x4096x256.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 256 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 256 ≤ (i 2).val ∧ (i 2).val < win0_5.index t (2 : Fin 3) * 256 + 256
    omega

/-! ## The arrays the region finds, and the array after the run -/

/-- The keys as the region finds them: the host's change of format is the identity on extended reals. -/
theorem V_keys (c : Dev nD) :
    @Eq (S8x4096x256.Idx → EReal) (V m c main_v0) (m ((c : Thread nD τ).loc main_arg1)) := by
  have e : @Eq (S8x4096x256.Idx → EReal) (V m c main_v0)
      (truncf (F := Ideal) (s := S8x4096x256) (φ := .f32) .bf16 (m ((c : Thread nD τ).loc main_arg1)) bitsLt_bf16_f32) := by
    dsimp only [Gen.V, Gen.hostOps0]; after_results
  exact e.trans rfl

/-- The values as the region finds them, likewise. -/
theorem V_values (c : Dev nD) :
    @Eq (S8x4096x256.Idx → EReal) (V m c main_v1) (m ((c : Thread nD τ).loc main_arg2)) := by
  have e : @Eq (S8x4096x256.Idx → EReal) (V m c main_v1)
      (truncf (F := Ideal) (s := S8x4096x256) (φ := .f32) .bf16 (m ((c : Thread nD τ).loc main_arg2)) bitsLt_bf16_f32) := by
    dsimp only [Gen.V, Gen.hostOps0]; after_results
  exact e.trans rfl

/-- After the run the result array is `GK` of the five argument arrays. -/
theorem final (c : Dev nD) :
    (dats m 0 c).arrAt 5 cfg0.N
      = GK (m ((c : Thread nD τ).loc main_arg0)) (m ((c : Thread nD τ).loc main_arg1)) (m ((c : Thread nD τ).loc main_arg2))
          (m ((c : Thread nD τ).loc main_arg3)) (m ((c : Thread nD τ).loc main_arg4)) := by
  have h := (dats m 0 c).arrAt_eq_of_cover 5
    (GK (V m c main_arg0) (V m c main_v0) (V m c main_v1) (V m c main_arg3) (V m c main_arg4))
    (fun t _ => flushed_eq m c t) (cover)
  rw [h, V_main_arg0, V_keys, V_values, V_main_arg3, V_main_arg4]

/-- The kernel's run: every weakly fair execution ends with the result array at `GK` of the arguments, the arguments
    unchanged. -/
theorem run : θ_run defs (onTc (τ := τ) (main (F := Ideal))) ⟨m, fun _ => 0, ρ⟩ fun r => ∀ c : Dev nD,
      r.2.mem ((c : Thread nD τ).loc main_v2)
        = GK (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefRow.lean ====
/-
  The reference's result read at an index, in the row form of AttnRows. At batch `b`, query `Q`, feature `d`:
  the score against key `n` is the contraction of query row `(b, Q)` with key row `(b, n)` times the host's scale;
  the row maximum is the fold of `max` over the keys from the initial word, taken once more against that word;
  the weights are normalised by their row sum before the contraction with the values (arrangement R); the query is
  added back; and the layer normalisation is taken along the feature axis of that row. Each host sum starts from the
  zero word, which adds nothing.
-/
import proofs.«157333_j33913061769232_2_alg».proof.Proof.Gen.ReferenceIdeal.Read
import proofs.«157333_j33913061769232_2_alg».proof.Proof.AttnRows
import proofs.«157333_j33913061769232_2_alg».proof.Proof.Words
import Idealize.ShloMosaic.Lib.ValueIdx
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx Cert.AttnRows

/-- An extended-real array of the programs' argument shape [8, 4096, 256]. -/
abbrev Arr3 := (⟨S8x4096x256, .f32⟩ : BufTy).Contents (Elt Ideal)
/-- An extended-real array of the shape [256]. -/
abbrev Arr1 := (⟨S256, .f32⟩ : BufTy).Contents (Elt Ideal)

/-- The host's scale: one over the square root of 256. -/
abbrev hostScale : EReal := Ideal.div (Ideal.ofBits .f32 0x3F800000#32) (Ideal.sqrt (Ideal.ofBits .f32 0x43800000#32))

/-! ## Where the composed index maps of the generated readings land -/

theorem lidx2 (b : Fin 8) (Q n : Fin 4096) (k : Fin 256) : lidx_main_v2 (ix3 b Q n) k = ix3 b Q k :=
  funext fun a => Fin.ext (by match a with | ⟨0, _⟩ => rfl | ⟨1, _⟩ => rfl | ⟨2, _⟩ => rfl)
theorem ridx2 (b : Fin 8) (Q n : Fin 4096) (k : Fin 256) : ridx_main_v2 (ix3 b Q n) k = ix3 b n k :=
  funext fun a => Fin.ext (by match a with | ⟨0, _⟩ => rfl | ⟨1, _⟩ => rfl | ⟨2, _⟩ => rfl)
theorem idx8_9 (b : Fin 8) (Q n : Fin 4096) : idx_main_v8 (idx_main_v9 (ix3 b Q n)) = ix2 b Q :=
  funext fun a => Fin.ext (by match a with | ⟨0, _⟩ => rfl | ⟨1, _⟩ => rfl)
theorem idx12 (b : Fin 8) (Q : Fin 4096) (k : Fin 4096) : idx_main_v12 (ix2 b Q) k = ix3 b Q k :=
  funext fun a => Fin.ext (by match a with | ⟨0, _⟩ => rfl | ⟨1, _⟩ => rfl | ⟨2, _⟩ => rfl)
theorem idx13_14 (b : Fin 8) (Q n : Fin 4096) : idx_main_v13 (idx_main_v14 (ix3 b Q n)) = ix2 b Q :=
  funext fun a => Fin.ext (by match a with | ⟨0, _⟩ => rfl | ⟨1, _⟩ => rfl)
theorem lidx16 (b : Fin 8) (Q : Fin 4096) (d : Fin 256) (k : Fin 4096) : lidx_main_v16 (ix3 b Q d) k = ix3 b Q k :=
  funext fun a => Fin.ext (by match a with | ⟨0, _⟩ => rfl | ⟨1, _⟩ => rfl | ⟨2, _⟩ => rfl)
theorem ridx16 (b : Fin 8) (Q : Fin 4096) (d : Fin 256) (k : Fin 4096) : ridx_main_v16 (ix3 b Q d) k = ix3 b k d :=
  funext fun a => Fin.ext (by match a with | ⟨0, _⟩ => rfl | ⟨1, _⟩ => rfl | ⟨2, _⟩ => rfl)
theorem idx18 (b : Fin 8) (Q : Fin 4096) (k : Fin 256) : idx_main_v18 (ix2 b Q) k = ix3 b Q k :=
  funext fun a => Fin.ext (by match a with | ⟨0, _⟩ => rfl | ⟨1, _⟩ => rfl | ⟨2, _⟩ => rfl)
theorem idx19_22 (b : Fin 8) (Q : Fin 4096) (d : Fin 256) : idx_main_v19 (idx_main_v22 (ix3 b Q d)) = ix2 b Q :=
  funext fun a => Fin.ext (by match a with | ⟨0, _⟩ => rfl | ⟨1, _⟩ => rfl)
theorem idx19_29 (b : Fin 8) (Q : Fin 4096) (d : Fin 256) : idx_main_v19 (idx_main_v29 (ix3 b Q d)) = ix2 b Q :=
  funext fun a => Fin.ext (by match a with | ⟨0, _⟩ => rfl | ⟨1, _⟩ => rfl)
theorem idx25 (b : Fin 8) (Q : Fin 4096) (k : Fin 256) : idx_main_v25 (ix2 b Q) k = ix3 b Q k :=
  funext fun a => Fin.ext (by match a with | ⟨0, _⟩ => rfl | ⟨1, _⟩ => rfl | ⟨2, _⟩ => rfl)
theorem idx26_34 (b : Fin 8) (Q : Fin 4096) (d : Fin 256) : idx_main_v26 (idx_main_v34 (ix3 b Q d)) = ix2 b Q :=
  funext fun a => Fin.ext (by match a with | ⟨0, _⟩ => rfl | ⟨1, _⟩ => rfl)
theorem idx36_37 (b : Fin 8) (Q : Fin 4096) (d : Fin 256) : idx_main_v36 (idx_main_v37 (ix3 b Q d)) = ix1 d :=
  funext fun a => Fin.ext (by match a with | ⟨0, _⟩ => rfl)
theorem idx39_40 (b : Fin 8) (Q : Fin 4096) (d : Fin 256) : idx_main_v39 (idx_main_v40 (ix3 b Q d)) = ix1 d :=
  funext fun a => Fin.ext (by match a with | ⟨0, _⟩ => rfl)

/-! ## The attention row -/

/-- The scaled score of query `(b, Q)` against key `(b, n)`. -/
theorem score_apply (x0 x1 : Arr3) (b : Fin 8) (Q n : Fin 4096) :
    val_main_v4 (F := Ideal) x0 x1 (ix3 b Q n)
      = scoreR hostScale (fun e : Fin 256 => x0 (ix3 b Q e)) (fun (n : Fin 4096) (e : Fin 256) => x1 (ix3 b n e)) n := by
  rw [val_main_v4_apply, val_main_v2_apply, val_main_v3_apply, val_main_v1_apply, val_main_cst_0_apply, val_main_v0_apply,
    val_main_cst_apply]
  simp only [lidx2, ridx2]
  rfl

/-- The row maximum the host subtracts. -/
theorem rowmax_apply (x0 x1 : Arr3) (b : Fin 8) (Q : Fin 4096) :
    val_main_v7 (F := Ideal) x0 x1 (ix2 b Q)
      = max (Ideal.ofBits .f32 0xFF800000#32)
          (Finset.univ.fold max (Ideal.ofBits .f32 0xFF800000#32) (fun n : Fin 4096 => val_main_v4 (F := Ideal) x0 x1 (ix3 b Q n))) := by
  rw [val_main_v7_apply, val_main_v6_apply, val_main_cst_2_apply]
  refine congrArg (max (Ideal.ofBits .f32 0xFF800000#32)) ?_
  unfold val_main_v5
  have hred : S8x4096x4096.Reduces [2] S8x4096 := by decide
  refine (Host.reduce_eq_fold_single (FloatOps.maximumf (F := Ideal) (φ := .f32)) (val_main_v4 (F := Ideal) x0 x1)
    (val_main_cst_1 (F := Ideal)) reducesTo_S8x4096x4096_S8x4096_d2 hred h_S_ (ix2 b Q)).trans ?_
  refine congrArg (Finset.univ.fold max (Ideal.ofBits .f32 0xFF800000#32)) (funext fun n => ?_)
  refine congrArg (val_main_v4 (F := Ideal) x0 x1) ?_
  funext a; apply Fin.ext
  match a with
  | ⟨0, _⟩ => rfl
  | ⟨1, _⟩ => rfl
  | ⟨2, _⟩ => rfl

/-- The unnormalised weight of key `n`. -/
theorem weight_apply (x0 x1 : Arr3) (b : Fin 8) (Q n : Fin 4096) :
    val_main_v11 (F := Ideal) x0 x1 (ix3 b Q n)
      = Ideal.exp (val_main_v4 (F := Ideal) x0 x1 (ix3 b Q n) - val_main_v7 (F := Ideal) x0 x1 (ix2 b Q)) := by
  rw [val_main_v11_apply, val_main_v10_apply, val_main_v9_apply, val_main_v8_apply, idx8_9]
  rfl

/-- The row sum of the weights. -/
theorem rowsum_apply (x0 x1 : Arr3) (b : Fin 8) (Q : Fin 4096) :
    val_main_v12 (F := Ideal) x0 x1 (ix2 b Q) = ∑ n : Fin 4096, val_main_v11 (F := Ideal) x0 x1 (ix3 b Q n) := by
  rw [val_main_v12_apply, val_main_cst_3_apply]
  simp only [idx12]
  show Ideal.ofBits .f32 0x00000000#32 + _ = _
  rw [Cert.Words.ofBits_zero, zero_add]

/-- The attention value with the residual, at `(b, Q, d)`, is arrangement R of the query row. -/
theorem attn_apply (x0 x1 x2 : Arr3) (b : Fin 8) (Q : Fin 4096) (d : Fin 256) :
    val_main_v17 (F := Ideal) x0 x1 x2 (ix3 b Q d)
      = attnR (Ideal.ofBits .f32 0xFF800000#32)
          (scoreR hostScale (fun e : Fin 256 => x0 (ix3 b Q e)) (fun (n : Fin 4096) (e : Fin 256) => x1 (ix3 b n e)))
          (fun (n : Fin 4096) (e : Fin 256) => x2 (ix3 b n e)) d
        + x0 (ix3 b Q d) := by
  rw [val_main_v17_apply, val_main_v16_apply]
  simp only [lidx16, ridx16, val_main_v15_apply, val_main_v14_apply, val_main_v13_apply, idx13_14, rowsum_apply, weight_apply,
    rowmax_apply, score_apply]
  rfl

/-! ## The layer normalisation of the row -/

/-- The row mean. -/
theorem mean_apply (x0 x1 x2 : Arr3) (b : Fin 8) (Q : Fin 4096) (u : Fin 1) :
    val_main_v21 (F := Ideal) x0 x1 x2 (ix3 b Q u)
      = Ideal.div (∑ e : Fin 256, val_main_v17 (F := Ideal) x0 x1 x2 (ix3 b Q e)) (Ideal.ofBits .f32 0x43800000#32) := by
  rw [val_main_v21_apply, val_main_v19_apply, val_main_v18_apply, val_main_cst_4_apply, val_main_v20_apply, val_main_cst_5_apply]
  have hi : idx_main_v19 (ix3 b Q u) = ix2 b Q :=
    funext fun a => Fin.ext (by match a with | ⟨0, _⟩ => rfl | ⟨1, _⟩ => rfl)
  rw [hi]
  simp only [idx18]
  show Ideal.div (Ideal.ofBits .f32 0x00000000#32 + _) _ = _
  rw [Cert.Words.ofBits_zero, zero_add]
  rfl

/-- The reference's result at `(b, Q, d)`: the layer normalisation of the attention row. -/
theorem result_apply (x0 x1 x2 : Arr3) (x3 x4 : Arr1) (b : Fin 8) (Q : Fin 4096) (d : Fin 256) :
    val_main_v41 (F := Ideal) x0 x1 x2 x3 x4 (ix3 b Q d)
      = layerNorm (Ideal.ofBits .f32 0x43800000#32) (Ideal.ofBits .f32 0x3727C5AC#32)
          (fun e : Fin 256 => val_main_v17 (F := Ideal) x0 x1 x2 (ix3 b Q e))
          (fun e : Fin 256 => x3 (ix1 e)) (fun e : Fin 256 => x4 (ix1 e)) d := by
  have hz : ∀ j : Fin 1, idx_main_v22 (ix3 b Q d) = ix3 b Q (0 : Fin 1) := fun _ =>
    funext fun a => Fin.ext (by match a with | ⟨0, _⟩ => rfl | ⟨1, _⟩ => rfl | ⟨2, _⟩ => rfl)
  have h22 : ∀ e : Fin 256, idx_main_v22 (ix3 b Q e) = ix3 b Q (0 : Fin 1) := fun e =>
    funext fun a => Fin.ext (by match a with | ⟨0, _⟩ => rfl | ⟨1, _⟩ => rfl | ⟨2, _⟩ => rfl)
  have h29 : idx_main_v29 (ix3 b Q d) = ix3 b Q (0 : Fin 1) :=
    funext fun a => Fin.ext (by match a with | ⟨0, _⟩ => rfl | ⟨1, _⟩ => rfl | ⟨2, _⟩ => rfl)
  have h34 : idx_main_v34 (ix3 b Q d) = ix3 b Q (0 : Fin 1) :=
    funext fun a => Fin.ext (by match a with | ⟨0, _⟩ => rfl | ⟨1, _⟩ => rfl | ⟨2, _⟩ => rfl)
  have h26 : idx_main_v26 (ix3 b Q (0 : Fin 1)) = ix2 b Q :=
    funext fun a => Fin.ext (by match a with | ⟨0, _⟩ => rfl | ⟨1, _⟩ => rfl)
  rw [val_main_v41_apply, val_main_v40_apply, val_main_v39_apply, idx39_40, val_main_v38_apply, val_main_v37_apply,
    val_main_v36_apply, idx36_37, val_main_v35_apply, val_main_v34_apply, h34, val_main_v33_apply, val_main_v32_apply,
    val_main_v31_apply, val_main_cst_8_apply, val_main_v28_apply, val_main_v27_apply, val_main_cst_7_apply,
    val_main_v26_apply, h26, val_main_v25_apply, val_main_cst_6_apply, val_main_v30_apply, val_main_v29_apply, h29,
    mean_apply]
  simp only [idx25, val_main_v24_apply, val_main_v23_apply, val_main_v22_apply, h22, mean_apply]
  unfold layerNorm
  show (_ - _) * Ideal.rsqrt (Ideal.div (Ideal.ofBits .f32 0x00000000#32 + _) _ + _) * _ + _ = _
  rw [Cert.Words.ofBits_zero, zero_add]
  rfl

end Cert.ReferenceIdeal.RowValue

end
-- ==== Proof.RefArray.lean ====
/-
  The reference's result array is `GR` of the five argument arrays (AttnSpec): at every index `(b, Q, d)` the generated
  stage readings give the layer normalisation of the attention row in arrangement R (RefRow).
-/
import proofs.«157333_j33913061769232_2_alg».proof.Proof.RefRow
import proofs.«157333_j33913061769232_2_alg».proof.Proof.AttnSpec

noncomputable section

namespace Cert.ReferenceIdeal.RowValue

open Cert.ReferenceIdeal Cert.ReferenceIdeal.Gen Cert.ReferenceIdeal.Read Idealize.ShloMosaic Idealize.ShloMosaic.ValueIdx
open Cert.AttnRows Cert.AttnSpec

/-- The reference's last stage, as a whole array, is `GR` of the arguments. -/
theorem ref_is_GR (x0 x1 x2 : Arr3) (x3 x4 : Arr1) :
    val_main_v41 (F := Ideal) x0 x1 x2 x3 x4 = GR x0 x1 x2 x3 x4 := by
  funext i
  obtain ⟨b, Q, d, rfl⟩ : ∃ (b : Fin 8) (Q : Fin 4096) (d : Fin 256), i = ix3 b Q d := ⟨i 0, i 1, i 2, eq_ix3 i⟩
  rw [result_apply]
  unfold GR outRowsR
  simp only [attn_apply]

end Cert.ReferenceIdeal.RowValue

end
-- ==== Proof.RealInputs.lean ====
/-
  What the precondition says: the predicate is the conjunction of five `all (|x| < +inf)` tests, one per argument
  array; where it is all ones, every entry of the first three arrays is an extended real whose absolute value is
  below the top element, that is, a real number. (The last two arrays are finite too; the equivalence never needs it.)
-/
import proofs.«157333_j33913061769232_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.RealInputs

open Idealize.ShloMosaic Cert.Pre_finite_inputs

variable [Cert.Pre_finite_inputs.Facts]

/-- The rank-0 shape has one index. -/
instance : Subsingleton S_.Idx := ⟨fun a b => funext fun d => d.elim0⟩

/-- An extended real whose absolute value compares below the word of `+inf` is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = (⊤ : EReal) := by simp [Ideal.ofBits, Ideal.ieee]
  rw [hinf] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- Where the precondition holds, the first three argument arrays hold real numbers. -/
theorem real_inputs (a0 a1 a2 : FVec Ideal S8x4096x256 .f32) (a3 a4 : FVec Ideal S256 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn, fn_part1] at h0
  change IntOp.andi (IntOp.andi (IntOp.andi (IntOp.andi _ _) _) _) _ = 1#1 at h0
  simp only [IntOp.andi_eq_one] at h0
  obtain ⟨⟨⟨⟨h00, h01⟩, h02⟩, -⟩, -⟩ := h0
  exact ⟨fun i => real_of_abs_lt_inf _ (Host.reduce_andi_all _ _ _ _ _ h00 i),
    fun i => real_of_abs_lt_inf _ (Host.reduce_andi_all _ _ _ _ _ h01 i),
    fun i => real_of_abs_lt_inf _ (Host.reduce_andi_all _ _ _ _ _ h02 i)⟩

end Cert.RealInputs

end
-- ==== Proof.lean ====
/-
  Fused attention with a residual and a layer normalisation — one kernel over query tiles of 512 rows, the whole
  keys and values of a batch resident — against the unfused jnp reference, as extended reals.

  Both programs compute, at batch `b`, query `Q`, feature `d`, the layer normalisation along `d` (scale `gamma`, shift
  `beta`, the variance offset one shared word) of the row `softmax (q[b,Q,:] · k[b,:,:]ᵀ / 16) · v[b,:,:] + q[b,Q,:]`.
  They differ in three places, none of which changes the value when `q`, `k`, `v` hold real numbers:
    * the kernel multiplies the query by the literal 1/16 before the products, the reference multiplies the finished
      score by `1 / sqrt 256`: the same real number, and a factor moves across a finite real sum;
    * the kernel takes the row maximum once from the bottom element, the reference takes it and then once more
      against the bottom element: the same maximum, a real number because there are 4096 > 0 real scores;
    * the kernel multiplies the weighted values by the reciprocal of the weights' sum at the end, the reference
      divides each weight by that sum first: the sum is a positive real, and `(∑ p·v) · (1/l) = ∑ (p/l)·v`.
  The roundings to bf16 on the way into the two matrix products are the identity on extended reals, and a matrix
  product into a zero accumulator, a lane sum and a host sum from the zero word are the plain sums.

  The frames of the two kernel programs and the reference's run, with the reading of each host stage at an index and
  the kernel's output block as one index-by-index function of its loaded blocks, are the generated modules'. Written
  here: the row algebra (AttnRows), the two whole-array functions and their equality on real inputs (AttnSpec), the
  kernel's attention value at an index (KernelRow) and its block (KernelBlock), the blocks tiling the array
  (KernelArray), the reference's stages chained into the row form (RefRow, RefArray), and that the precondition
  makes `q`, `k`, `v` real (RealInputs). The idealisation rewrote no operation, so there is nothing to preserve.
-/
import proofs.«157333_j33913061769232_2_alg».proof.Defs
import proofs.«157333_j33913061769232_2_alg».proof.Proof.Gen.Kernel
import proofs.«157333_j33913061769232_2_alg».proof.Proof.Gen.Kernel.Skeleton
import proofs.«157333_j33913061769232_2_alg».proof.Proof.Gen.Kernel.Launch
import proofs.«157333_j33913061769232_2_alg».proof.Proof.Gen.Kernel.Points
import proofs.«157333_j33913061769232_2_alg».proof.Proof.Gen.Kernel.Frame
import proofs.«157333_j33913061769232_2_alg».proof.Proof.Gen.KernelIdeal
import proofs.«157333_j33913061769232_2_alg».proof.Proof.Gen.KernelIdeal.Skeleton
import proofs.«157333_j33913061769232_2_alg».proof.Proof.Gen.KernelIdeal.Launch
import proofs.«157333_j33913061769232_2_alg».proof.Proof.Gen.KernelIdeal.Points
import proofs.«157333_j33913061769232_2_alg».proof.Proof.Gen.KernelIdeal.Frame
import proofs.«157333_j33913061769232_2_alg».proof.Proof.Gen.ReferenceIdeal
import proofs.«157333_j33913061769232_2_alg».proof.Proof.Gen.Pre_finite_inputs
import proofs.«157333_j33913061769232_2_alg».proof.Proof.Gen.KernelIdeal.Value
import proofs.«157333_j33913061769232_2_alg».proof.Proof.Gen.ReferenceIdeal.Run
import proofs.«157333_j33913061769232_2_alg».proof.Proof.Gen.ReferenceIdeal.Read
import proofs.«157333_j33913061769232_2_alg».proof.Proof.KernelArray
import proofs.«157333_j33913061769232_2_alg».proof.Proof.RefArray
import proofs.«157333_j33913061769232_2_alg».proof.Proof.RealInputs
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both runs end with the result array at one function of the arguments: the kernel's at `GK`, the reference's at
    `GR` of arrays that agree with the kernel's, and on the real `q`, `k`, `v` the precondition grants the two are equal. -/
theorem algebraic : Cert.algebraic_KernelIdeal_ReferenceIdeal := by
  intro m ρ m' ρ' hpre hagree
  refine ⟨fun c => Cert.AttnSpec.GK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RowValue.ref_is_GR, (hagree c).1, (hagree c).2.1,
    (hagree c).2.2.1, (hagree c).2.2.2.1, (hagree c).2.2.2.2]
  obtain ⟨h0, h1, h2⟩ := Cert.RealInputs.real_inputs _ _ _ _ _ (hpre c)
  exact (Cert.AttnSpec.GK_eq_GR _ _ _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
